-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x131072 : Shape := ⟨2, ![2, 131072]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x1 : Shape := ⟨2, ![512, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S512x1 .f32) (main_arg7 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x1 .f32 := Host.absf main_arg6
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x512 .f32) (main_arg1 : IVec S2x131072 32) (main_arg2 : FVec F S512x512 .f32) (main_arg3 : FVec F S512 .f32) (main_arg4 : FVec F S512x256 .f32) (main_arg5 : FVec F S256 .f32) (main_arg6 : FVec F S512x1 .f32) (main_arg7 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_v13 main_v16
-- ==== Kernel.lean ====
abbrev S8192x512 : Shape := ⟨2, ![8192, 512]⟩
abbrev S2x131072 : Shape := ⟨2, ![2, 131072]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x1 : Shape := ⟨2, ![512, 1]⟩
abbrev S1 : Shape := ⟨1, ![1]⟩
abbrev S8192 : Shape := ⟨1, ![8192]⟩
abbrev S1x131072 : Shape := ⟨2, ![1, 131072]⟩
abbrev S131072 : Shape := ⟨1, ![131072]⟩
abbrev S139264 : Shape := ⟨1, ![139264]⟩
abbrev S_ : Shape := ⟨0, ![]⟩
abbrev S139264x1 : Shape := ⟨2, ![139264, 1]⟩
abbrev S139264x512 : Shape := ⟨2, ![139264, 512]⟩
abbrev S1x512 : Shape := ⟨2, ![1, 512]⟩
abbrev S8192x1 : Shape := ⟨2, ![8192, 1]⟩
abbrev S1x1 : Shape := ⟨2, ![1, 1]⟩
abbrev S8192x256 : Shape := ⟨2, ![8192, 256]⟩
abbrev S139264x256 : Shape := ⟨2, ![139264, 256]⟩
abbrev S1x256 : Shape := ⟨2, ![1, 256]⟩
abbrev S256x8192 : Shape := ⟨2, ![256, 8192]⟩
abbrev S8192x8192 : Shape := ⟨2, ![8192, 8192]⟩
abbrev S256x256 : Shape := ⟨2, ![256, 256]⟩
abbrev S256x1 : Shape := ⟨2, ![256, 1]⟩
abbrev S128x256 : Shape := ⟨2, ![128, 256]⟩
abbrev S128x8192 : Shape := ⟨2, ![128, 8192]⟩
abbrev S128 : Shape := ⟨1, ![128]⟩
abbrev S128x1 : Shape := ⟨2, ![128, 1]⟩

abbrev nBuf : Space → Nat
  | .hbm => 121
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S2x131072, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x1, .f32⟩
  | .hbm, ⟨7, _⟩ => ⟨S1, .f32⟩
  | .hbm, ⟨8, _⟩ => ⟨S8192, .i32⟩
  | .hbm, ⟨9, _⟩ => ⟨S1x131072, .i32⟩
  | .hbm, ⟨10, _⟩ => ⟨S131072, .i32⟩
  | .hbm, ⟨11, _⟩ => ⟨S139264, .i32⟩
  | .hbm, ⟨12, _⟩ => ⟨S1x131072, .i32⟩
  | .hbm, ⟨13, _⟩ => ⟨S131072, .i32⟩
  | .hbm, ⟨14, _⟩ => ⟨S139264, .i32⟩
  | .hbm, ⟨15, _⟩ => ⟨S_, .f32⟩
  | .hbm, ⟨16, _⟩ => ⟨S139264, .f32⟩
  | .hbm, ⟨17, _⟩ => ⟨S_, .f32⟩
  | .hbm, ⟨18, _⟩ => ⟨S8192, .f32⟩
  | .hbm, ⟨19, _⟩ => ⟨S139264x1, .i32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .i1⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S139264, .i32⟩
  | .hbm, ⟨31, _⟩ => ⟨S139264, .i1⟩
  | .hbm, ⟨32, _⟩ => ⟨S_, .i32⟩
  | .hbm, ⟨33, _⟩ => ⟨S139264, .i32⟩
  | .hbm, ⟨34, _⟩ => ⟨S139264, .i32⟩
  | .hbm, ⟨35, _⟩ => ⟨S139264, .i32⟩
  | .hbm, ⟨36, _⟩ => ⟨S139264x1, .i32⟩
  | .hbm, ⟨37, _⟩ => ⟨S139264, .f32⟩
  | .hbm, ⟨38, _⟩ => ⟨S_, .i32⟩
  | .hbm, ⟨39, _⟩ => ⟨S139264, .i32⟩
  | .hbm, ⟨40, _⟩ => ⟨S139264, .i1⟩
  | .hbm, ⟨41, _⟩ => ⟨S_, .i32⟩
  | .hbm, ⟨42, _⟩ => ⟨S139264, .i32⟩
  | .hbm, ⟨43, _⟩ => ⟨S139264, .i32⟩
  | .hbm, ⟨44, _⟩ => ⟨S139264, .i32⟩
  | .hbm, ⟨45, _⟩ => ⟨S139264x1, .i32⟩
  | .hbm, ⟨46, _⟩ => ⟨S139264, .f32⟩
  | .hbm, ⟨47, _⟩ => ⟨S139264, .f32⟩
  | .hbm, ⟨48, _⟩ => ⟨S8192x512, .f32⟩
  | .hbm, ⟨49, _⟩ => ⟨S_, .i32⟩
  | .hbm, ⟨50, _⟩ => ⟨S139264, .i32⟩
  | .hbm, ⟨51, _⟩ => ⟨S139264, .i1⟩
  | .hbm, ⟨52, _⟩ => ⟨S_, .i32⟩
  | .hbm, ⟨53, _⟩ => ⟨S139264, .i32⟩
  | .hbm, ⟨54, _⟩ => ⟨S139264, .i32⟩
  | .hbm, ⟨55, _⟩ => ⟨S139264, .i32⟩
  | .hbm, ⟨56, _⟩ => ⟨S139264x1, .i32⟩
  | .hbm, ⟨57, _⟩ => ⟨S139264x512, .f32⟩
  | .hbm, ⟨58, _⟩ => ⟨S139264x1, .f32⟩
  | .hbm, ⟨59, _⟩ => ⟨S139264x512, .f32⟩
  | .hbm, ⟨60, _⟩ => ⟨S139264x512, .f32⟩
  | .hbm, ⟨61, _⟩ => ⟨S_, .f32⟩
  | .hbm, ⟨62, _⟩ => ⟨S8192x512, .f32⟩
  | .hbm, ⟨63, _⟩ => ⟨S139264x1, .i32⟩
  | .hbm, ⟨64, _⟩ => ⟨S8192x512, .f32⟩
  | .hbm, ⟨65, _⟩ => ⟨S1x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S8192x1, .f32⟩
  | .hbm, ⟨72, _⟩ => ⟨S_, .i32⟩
  | .hbm, ⟨73, _⟩ => ⟨S139264, .i32⟩
  | .hbm, ⟨74, _⟩ => ⟨S139264, .i1⟩
  | .hbm, ⟨75, _⟩ => ⟨S_, .i32⟩
  | .hbm, ⟨76, _⟩ => ⟨S139264, .i32⟩
  | .hbm, ⟨77, _⟩ => ⟨S139264, .i32⟩
  | .hbm, ⟨78, _⟩ => ⟨S139264, .i32⟩
  | .hbm, ⟨79, _⟩ => ⟨S139264x1, .i32⟩
  | .hbm, ⟨80, _⟩ => ⟨S139264x1, .f32⟩
  | .hbm, ⟨81, _⟩ => ⟨S139264x1, .f32⟩
  | .hbm, ⟨82, _⟩ => ⟨S139264x1, .f32⟩
  | .hbm, ⟨83, _⟩ => ⟨S_, .f32⟩
  | .hbm, ⟨84, _⟩ => ⟨S8192x1, .f32⟩
  | .hbm, ⟨85, _⟩ => ⟨S139264x1, .i32⟩
  | .hbm, ⟨86, _⟩ => ⟨S8192x1, .f32⟩
  | .hbm, ⟨87, _⟩ => ⟨S1x1, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S8192x256, .f32⟩
  | .hbm, ⟨99, _⟩ => ⟨S_, .i32⟩
  | .hbm, ⟨100, _⟩ => ⟨S139264, .i32⟩
  | .hbm, ⟨101, _⟩ => ⟨S139264, .i1⟩
  | .hbm, ⟨102, _⟩ => ⟨S_, .i32⟩
  | .hbm, ⟨103, _⟩ => ⟨S139264, .i32⟩
  | .hbm, ⟨104, _⟩ => ⟨S139264, .i32⟩
  | .hbm, ⟨105, _⟩ => ⟨S139264, .i32⟩
  | .hbm, ⟨106, _⟩ => ⟨S139264x1, .i32⟩
  | .hbm, ⟨107, _⟩ => ⟨S139264x256, .f32⟩
  | .hbm, ⟨108, _⟩ => ⟨S139264x1, .f32⟩
  | .hbm, ⟨109, _⟩ => ⟨S139264x256, .f32⟩
  | .hbm, ⟨110, _⟩ => ⟨S139264x256, .f32⟩
  | .hbm, ⟨111, _⟩ => ⟨S_, .f32⟩
  | .hbm, ⟨112, _⟩ => ⟨S8192x256, .f32⟩
  | .hbm, ⟨113, _⟩ => ⟨S139264x1, .i32⟩
  | .hbm, ⟨114, _⟩ => ⟨S8192x256, .f32⟩
  | .hbm, ⟨115, _⟩ => ⟨S1x256, .f32⟩
  | .hbm, ⟨116, _⟩ => ⟨S8192x256, .f32⟩
  | .hbm, ⟨117, _⟩ => ⟨S8192x256, .f32⟩
  | .hbm, ⟨118, _⟩ => ⟨S8192x256, .bf16⟩
  | .hbm, ⟨119, _⟩ => ⟨S256x8192, .bf16⟩
  | .hbm, ⟨120, _⟩ => ⟨S8192x8192, .f32⟩
  | .local _ .vmem, ⟨0, _⟩ => ⟨S256x256, .bf16⟩
  | .local _ .vmem, ⟨1, _⟩ => ⟨S256x256, .bf16⟩
  | .local _ .vmem, ⟨2, _⟩ => ⟨S256x8192, .bf16⟩
  | .local _ .vmem, ⟨3, _⟩ => ⟨S256x1, .f32⟩
  | .local _ .vmem, ⟨4, _⟩ => ⟨S256x1, .f32⟩
  | .local _ .vmem, ⟨5, _⟩ => ⟨S256x8192, .f32⟩
  | .local _ .vmem, ⟨6, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x131072_S1x131072_0_0 : S2x131072.Slices ![0, 0] S1x131072
  shapeCasts_S1x131072_S131072 : S1x131072.ShapeCasts S131072
  concatenates_S131072_S8192_S139264_d0 : Shape.Concatenates [S131072, S8192] S139264 0
  slices_S2x131072_S1x131072_1_0 : S2x131072.Slices ![1, 0] S1x131072
  bcast_S_S139264 : S_.BroadcastsInDim S139264 (![] : Fin 0 → Fin S139264.rank)
  bcast_S_S8192 : S_.BroadcastsInDim S8192 (![] : Fin 0 → Fin S8192.rank)
  bcast_S139264_S139264x1_0 : S139264.BroadcastsInDim S139264x1 (![0] : Fin 1 → Fin S139264x1.rank)
  bcast_S139264x1_S139264x512_0_1 : S139264x1.BroadcastsInDim S139264x512 (![0, 1] : Fin 2 → Fin S139264x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S139264x1_S139264x256_0_1 : S139264x1.BroadcastsInDim S139264x256 (![0, 1] : Fin 2 → Fin S139264x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bitsLt_bf16_f32 : FTy.bits .bf16 < FTy.bits .f32
  transposes_S8192x256_S256x8192_1_0 : S8192x256.Transposes [1, 0] S256x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S128x256_0_0 : ∀ a, (![0, 0] : Fin 2 → Nat) a + S128x256.size a ≤ S256x256.size a
  h_S128x256 : 0 < S128x256.numel
  shapeCasts_S128x256_S128x256 : S128x256.ShapeCasts S128x256
  reduces_S128x8192_S128 : S128x8192.Reduces [1] S128
  shapeCasts_S128_S128x1 : S128.ShapeCasts S128x1
  broadcasts_S128x1_S128x8192 : S128x1.Broadcasts S128x8192
  inb_S256x1_S128x1_0_0 : ∀ a, (![0, 0] : Fin 2 → Nat) a + S128x1.size a ≤ S256x1.size a
  h_S128x1 : 0 < S128x1.numel
  shapeCasts_S128x1_S128x1 : S128x1.ShapeCasts S128x1
  inb_S256x8192_S128x8192_0_0 : ∀ a, (![0, 0] : Fin 2 → Nat) a + S128x8192.size a ≤ S256x8192.size a
  h_S128x8192 : 0 < S128x8192.numel
  inb_S256x256_S128x256_128_0 : ∀ a, (![128, 0] : Fin 2 → Nat) a + S128x256.size a ≤ S256x256.size a
  inb_S256x1_S128x1_128_0 : ∀ a, (![128, 0] : Fin 2 → Nat) a + S128x1.size a ≤ S256x1.size a
  inb_S256x8192_S128x8192_128_0 : ∀ a, (![128, 0] : Fin 2 → Nat) a + S128x8192.size a ≤ S256x8192.size a
  scatter_S8192_S139264x1_S139264_n_0_0_1_wf : ScatterDims.WF S8192 S139264x1 S139264 [] [0] [0] 1
  gather_S8192_S139264x1_S139264_n_0_n_n_0_1_1_wf : GatherDims.WF S8192 S139264x1 S139264 [] [0] [] [0] [] 1 ![1]
  dot_S8192x512_S512x512_S8192x512_1_0_0_1_n_n_wf : DotDims.WF S8192x512 S512x512 S8192x512 [1] [0] [0] [1] [] []
  gather_S8192x512_S139264x1_S139264x512_1_0_n_n_0_1_1512_wf : GatherDims.WF S8192x512 S139264x1 S139264x512 [1] [0] [] [0] [] 1 ![1, 512]
  scatter_S8192x512_S139264x1_S139264x512_1_0_0_1_wf : ScatterDims.WF S8192x512 S139264x1 S139264x512 [1] [0] [0] 1
  dot_S8192x512_S512x1_S8192x1_1_0_0_1_n_n_wf : DotDims.WF S8192x512 S512x1 S8192x1 [1] [0] [0] [1] [] []
  gather_S8192x1_S139264x1_S139264x1_1_0_n_n_0_1_11_wf : GatherDims.WF S8192x1 S139264x1 S139264x1 [1] [0] [] [0] [] 1 ![1, 1]
  scatter_S8192x1_S139264x1_S139264x1_1_0_0_1_wf : ScatterDims.WF S8192x1 S139264x1 S139264x1 [1] [0] [0] 1
  dot_S8192x512_S512x256_S8192x256_1_0_0_1_n_n_wf : DotDims.WF S8192x512 S512x256 S8192x256 [1] [0] [0] [1] [] []
  gather_S8192x256_S139264x1_S139264x256_1_0_n_n_0_1_1256_wf : GatherDims.WF S8192x256 S139264x1 S139264x256 [1] [0] [] [0] [] 1 ![1, 256]
  scatter_S8192x256_S139264x1_S139264x256_1_0_0_1_wf : ScatterDims.WF S8192x256 S139264x1 S139264x256 [1] [0] [0] 1
  dot_S128x256_S256x8192_S128x8192_1_0_0_1_n_n_wf : DotDims.WF S128x256 S256x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .bf16 = 32 ∨ (Rect.block (s := S8192x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S256x8192.size a
  hwx0_1 : ∀ i : grid0.Coords, EltTy.bits .bf16 = 32 ∨ (Rect.block (s := S256x8192) S256x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .f32 = 32 ∨ (Rect.block (s := S8192x8192) S256x8192.size (cc0_transform_3 i) (hinb0_3 i)).WholeWords (EltTy.packing .f32)

variable [Facts₀]

def scatter_S8192_S139264x1_S139264_n_0_0_1 : ScatterDims S8192 S139264x1 S139264 where
  updateWindowDims := []
  insertedWindowDims := [0]
  scatterDimsToOperandDims := [0]
  indexVectorDim := 1
  wf := scatter_S8192_S139264x1_S139264_n_0_0_1_wf
def gather_S8192_S139264x1_S139264_n_0_n_n_0_1_1 : GatherDims S8192 S139264x1 S139264 where
  offsetDims := []
  collapsedSliceDims := [0]
  operandBatchingDims := []
  startIndicesBatchingDims := []
  startIndexMap := [0]
  indexVectorDim := 1
  sliceSizes := ![1]
  wf := gather_S8192_S139264x1_S139264_n_0_n_n_0_1_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def gather_S8192x512_S139264x1_S139264x512_1_0_n_n_0_1_1512 : GatherDims S8192x512 S139264x1 S139264x512 where
  offsetDims := [1]
  collapsedSliceDims := [0]
  operandBatchingDims := []
  startIndicesBatchingDims := []
  startIndexMap := [0]
  indexVectorDim := 1
  sliceSizes := ![1, 512]
  wf := gather_S8192x512_S139264x1_S139264x512_1_0_n_n_0_1_1512_wf
def scatter_S8192x512_S139264x1_S139264x512_1_0_0_1 : ScatterDims S8192x512 S139264x1 S139264x512 where
  updateWindowDims := [1]
  insertedWindowDims := [0]
  scatterDimsToOperandDims := [0]
  indexVectorDim := 1
  wf := scatter_S8192x512_S139264x1_S139264x512_1_0_0_1_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x1_S139264x1_S139264x1_1_0_n_n_0_1_11 : GatherDims S8192x1 S139264x1 S139264x1 where
  offsetDims := [1]
  collapsedSliceDims := [0]
  operandBatchingDims := []
  startIndicesBatchingDims := []
  startIndexMap := [0]
  indexVectorDim := 1
  sliceSizes := ![1, 1]
  wf := gather_S8192x1_S139264x1_S139264x1_1_0_n_n_0_1_11_wf
def scatter_S8192x1_S139264x1_S139264x1_1_0_0_1 : ScatterDims S8192x1 S139264x1 S139264x1 where
  updateWindowDims := [1]
  insertedWindowDims := [0]
  scatterDimsToOperandDims := [0]
  indexVectorDim := 1
  wf := scatter_S8192x1_S139264x1_S139264x1_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S139264x1_S139264x256_1_0_n_n_0_1_1256 : GatherDims S8192x256 S139264x1 S139264x256 where
  offsetDims := [1]
  collapsedSliceDims := [0]
  operandBatchingDims := []
  startIndicesBatchingDims := []
  startIndexMap := [0]
  indexVectorDim := 1
  sliceSizes := ![1, 256]
  wf := gather_S8192x256_S139264x1_S139264x256_1_0_n_n_0_1_1256_wf
def scatter_S8192x256_S139264x1_S139264x256_1_0_0_1 : ScatterDims S8192x256 S139264x1 S139264x256 where
  updateWindowDims := [1]
  insertedWindowDims := [0]
  scatterDimsToOperandDims := [0]
  indexVectorDim := 1
  wf := scatter_S8192x256_S139264x1_S139264x256_1_0_0_1_wf
def dot_S128x256_S256x8192_S128x8192_1_0_0_1_n_n : DotDims S128x256 S256x8192 S128x8192 where
  lhsContracting := [1]
  rhsContracting := [0]
  lhsNonContracting := [0]
  rhsNonContracting := [1]
  lhsBatch := []
  rhsBatch := []
  wf := dot_S128x256_S256x8192_S128x8192_1_0_0_1_n_n_wf

abbrev win0_0 : Pipeline.Window sig grid0 :=
  Pipeline.Window.ofSpec (Memref.whole main_v87) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S256x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v89) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S2x131072 : Shape := ⟨2, ![2, 131072]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x1 : Shape := ⟨2, ![512, 1]⟩
abbrev S1 : Shape := ⟨1, ![1]⟩
abbrev S8192 : Shape := ⟨1, ![8192]⟩
abbrev S1x131072 : Shape := ⟨2, ![1, 131072]⟩
abbrev S131072 : Shape := ⟨1, ![131072]⟩
abbrev S139264 : Shape := ⟨1, ![139264]⟩
abbrev S_ : Shape := ⟨0, ![]⟩
abbrev S139264x1 : Shape := ⟨2, ![139264, 1]⟩
abbrev S139264x512 : Shape := ⟨2, ![139264, 512]⟩
abbrev S1x512 : Shape := ⟨2, ![1, 512]⟩
abbrev S8192x1 : Shape := ⟨2, ![8192, 1]⟩
abbrev S1x1 : Shape := ⟨2, ![1, 1]⟩
abbrev S8192x256 : Shape := ⟨2, ![8192, 256]⟩
abbrev S139264x256 : Shape := ⟨2, ![139264, 256]⟩
abbrev S1x256 : Shape := ⟨2, ![1, 256]⟩
abbrev S256x8192 : Shape := ⟨2, ![256, 8192]⟩
abbrev S8192x8192 : Shape := ⟨2, ![8192, 8192]⟩

abbrev nBuf : Space → Nat
  | .hbm => 141
  | .vmem => 0
  | .smem => 0
  | _ => 0

abbrev hbmTy0_0 (i : Nat) : BufTy := match i % 128 with
  | 0 => ⟨S8192x512, .f32⟩
  | 1 => ⟨S2x131072, .i32⟩
  | 2 => ⟨S512x512, .f32⟩
  | 3 => ⟨S512, .f32⟩
  | 4 => ⟨S512x256, .f32⟩
  | 5 => ⟨S256, .f32⟩
  | 6 => ⟨S512x1, .f32⟩
  | 7 => ⟨S1, .f32⟩
  | 8 => ⟨S8192, .i32⟩
  | 9 => ⟨S1x131072, .i32⟩
  | 10 => ⟨S131072, .i32⟩
  | 11 => ⟨S139264, .i32⟩
  | 12 => ⟨S1x131072, .i32⟩
  | 13 => ⟨S131072, .i32⟩
  | 14 => ⟨S139264, .i32⟩
  | 15 => ⟨S_, .f32⟩
  | 16 => ⟨S139264, .f32⟩
  | 17 => ⟨S_, .f32⟩
  | 18 => ⟨S8192, .f32⟩
  | 19 => ⟨S139264x1, .i32⟩
  | 20 => ⟨S8192, .f32⟩
  | 21 => ⟨S_, .f32⟩
  | 22 => ⟨S8192, .f32⟩
  | 23 => ⟨S8192, .i1⟩
  | 24 => ⟨S8192, .f32⟩
  | 25 => ⟨S_, .f32⟩
  | 26 => ⟨S_, .f32⟩
  | 27 => ⟨S8192, .f32⟩
  | 28 => ⟨S8192, .f32⟩
  | 29 => ⟨S_, .i32⟩
  | 30 => ⟨S139264, .i32⟩
  | 31 => ⟨S139264, .i1⟩
  | 32 => ⟨S_, .i32⟩
  | 33 => ⟨S139264, .i32⟩
  | 34 => ⟨S139264, .i32⟩
  | 35 => ⟨S139264, .i32⟩
  | 36 => ⟨S139264x1, .i32⟩
  | 37 => ⟨S139264, .f32⟩
  | 38 => ⟨S_, .i32⟩
  | 39 => ⟨S139264, .i32⟩
  | 40 => ⟨S139264, .i1⟩
  | 41 => ⟨S_, .i32⟩
  | 42 => ⟨S139264, .i32⟩
  | 43 => ⟨S139264, .i32⟩
  | 44 => ⟨S139264, .i32⟩
  | 45 => ⟨S139264x1, .i32⟩
  | 46 => ⟨S139264, .f32⟩
  | 47 => ⟨S139264, .f32⟩
  | 48 => ⟨S8192x512, .f32⟩
  | 49 => ⟨S_, .i32⟩
  | 50 => ⟨S139264, .i32⟩
  | 51 => ⟨S139264, .i1⟩
  | 52 => ⟨S_, .i32⟩
  | 53 => ⟨S139264, .i32⟩
  | 54 => ⟨S139264, .i32⟩
  | 55 => ⟨S139264, .i32⟩
  | 56 => ⟨S139264x1, .i32⟩
  | 57 => ⟨S139264x512, .f32⟩
  | 58 => ⟨S139264x1, .f32⟩
  | 59 => ⟨S139264x512, .f32⟩
  | 60 => ⟨S139264x512, .f32⟩
  | 61 => ⟨S_, .f32⟩
  | 62 => ⟨S8192x512, .f32⟩
  | 63 => ⟨S139264x1, .i32⟩
  | 64 => ⟨S8192x512, .f32⟩
  | 65 => ⟨S1x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x1, .f32⟩
  | 72 => ⟨S_, .i32⟩
  | 73 => ⟨S139264, .i32⟩
  | 74 => ⟨S139264, .i1⟩
  | 75 => ⟨S_, .i32⟩
  | 76 => ⟨S139264, .i32⟩
  | 77 => ⟨S139264, .i32⟩
  | 78 => ⟨S139264, .i32⟩
  | 79 => ⟨S139264x1, .i32⟩
  | 80 => ⟨S139264x1, .f32⟩
  | 81 => ⟨S139264x1, .f32⟩
  | 82 => ⟨S139264x1, .f32⟩
  | 83 => ⟨S_, .f32⟩
  | 84 => ⟨S8192x1, .f32⟩
  | 85 => ⟨S139264x1, .i32⟩
  | 86 => ⟨S8192x1, .f32⟩
  | 87 => ⟨S1x1, .f32⟩
  | 88 => ⟨S8192x1, .f32⟩
  | 89 => ⟨S8192x1, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x256, .f32⟩
  | 99 => ⟨S_, .i32⟩
  | 100 => ⟨S139264, .i32⟩
  | 101 => ⟨S139264, .i1⟩
  | 102 => ⟨S_, .i32⟩
  | 103 => ⟨S139264, .i32⟩
  | 104 => ⟨S139264, .i32⟩
  | 105 => ⟨S139264, .i32⟩
  | 106 => ⟨S139264x1, .i32⟩
  | 107 => ⟨S139264x256, .f32⟩
  | 108 => ⟨S139264x1, .f32⟩
  | 109 => ⟨S139264x256, .f32⟩
  | 110 => ⟨S139264x256, .f32⟩
  | 111 => ⟨S_, .f32⟩
  | 112 => ⟨S8192x256, .f32⟩
  | 113 => ⟨S139264x1, .i32⟩
  | 114 => ⟨S8192x256, .f32⟩
  | 115 => ⟨S1x256, .f32⟩
  | 116 => ⟨S8192x256, .f32⟩
  | 117 => ⟨S8192x256, .f32⟩
  | 118 => ⟨S256x8192, .f32⟩
  | 119 => ⟨S8192x8192, .f32⟩
  | 120 => ⟨S_, .f32⟩
  | 121 => ⟨S8192, .f32⟩
  | 122 => ⟨S8192x1, .f32⟩
  | 123 => ⟨S8192x8192, .f32⟩
  | 124 => ⟨S8192x8192, .f32⟩
  | 125 => ⟨S8192x8192, .f32⟩
  | 126 => ⟨S8192x8192, .f32⟩
  | 127 => ⟨S8192x8192, .f32⟩
  | _ => ⟨S8192x512, .f32⟩

abbrev hbmTy0_1 (i : Nat) : BufTy := match i % 128 with
  | 0 => ⟨S_, .f32⟩
  | 1 => ⟨S8192, .f32⟩
  | 2 => ⟨S8192x1, .f32⟩
  | 3 => ⟨S8192x8192, .f32⟩
  | 4 => ⟨S8192x8192, .f32⟩
  | 5 => ⟨S8192x8192, .f32⟩
  | 6 => ⟨S8192x8192, .f32⟩
  | 7 => ⟨S_, .f32⟩
  | 8 => ⟨S8192x8192, .f32⟩
  | 9 => ⟨S8192x8192, .f32⟩
  | 10 => ⟨S_, .f32⟩
  | 11 => ⟨S8192x8192, .f32⟩
  | 12 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  concatenates_S131072_S8192_S139264_d0 : Shape.Concatenates [S131072, S8192] S139264 0
  slices_S2x131072_S1x131072_1_0 : S2x131072.Slices ![1, 0] S1x131072
  bcast_S_S139264 : S_.BroadcastsInDim S139264 (![] : Fin 0 → Fin S139264.rank)
  bcast_S_S8192 : S_.BroadcastsInDim S8192 (![] : Fin 0 → Fin S8192.rank)
  bcast_S139264_S139264x1_0 : S139264.BroadcastsInDim S139264x1 (![0] : Fin 1 → Fin S139264x1.rank)
  bcast_S139264x1_S139264x512_0_1 : S139264x1.BroadcastsInDim S139264x512 (![0, 1] : Fin 2 → Fin S139264x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S139264x1_S139264x256_0_1 : S139264x1.BroadcastsInDim S139264x256 (![0, 1] : Fin 2 → Fin S139264x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  scatter_S8192_S139264x1_S139264_n_0_0_1_wf : ScatterDims.WF S8192 S139264x1 S139264 [] [0] [0] 1
  gather_S8192_S139264x1_S139264_n_0_n_n_0_1_1_wf : GatherDims.WF S8192 S139264x1 S139264 [] [0] [] [0] [] 1 ![1]
  dot_S8192x512_S512x512_S8192x512_1_0_0_1_n_n_wf : DotDims.WF S8192x512 S512x512 S8192x512 [1] [0] [0] [1] [] []
  gather_S8192x512_S139264x1_S139264x512_1_0_n_n_0_1_1512_wf : GatherDims.WF S8192x512 S139264x1 S139264x512 [1] [0] [] [0] [] 1 ![1, 512]
  scatter_S8192x512_S139264x1_S139264x512_1_0_0_1_wf : ScatterDims.WF S8192x512 S139264x1 S139264x512 [1] [0] [0] 1
  dot_S8192x512_S512x1_S8192x1_1_0_0_1_n_n_wf : DotDims.WF S8192x512 S512x1 S8192x1 [1] [0] [0] [1] [] []
  gather_S8192x1_S139264x1_S139264x1_1_0_n_n_0_1_11_wf : GatherDims.WF S8192x1 S139264x1 S139264x1 [1] [0] [] [0] [] 1 ![1, 1]
  scatter_S8192x1_S139264x1_S139264x1_1_0_0_1_wf : ScatterDims.WF S8192x1 S139264x1 S139264x1 [1] [0] [0] 1
  dot_S8192x512_S512x256_S8192x256_1_0_0_1_n_n_wf : DotDims.WF S8192x512 S512x256 S8192x256 [1] [0] [0] [1] [] []
  gather_S8192x256_S139264x1_S139264x256_1_0_n_n_0_1_1256_wf : GatherDims.WF S8192x256 S139264x1 S139264x256 [1] [0] [] [0] [] 1 ![1, 256]
  scatter_S8192x256_S139264x1_S139264x256_1_0_0_1_wf : ScatterDims.WF S8192x256 S139264x1 S139264x256 [1] [0] [0] 1
  dot_S8192x256_S256x8192_S8192x8192_1_0_0_1_n_n_wf : DotDims.WF S8192x256 S256x8192 S8192x8192 [1] [0] [0] [1] [] []

variable [Facts₀]

def scatter_S8192_S139264x1_S139264_n_0_0_1 : ScatterDims S8192 S139264x1 S139264 where
  updateWindowDims := []
  insertedWindowDims := [0]
  scatterDimsToOperandDims := [0]
  indexVectorDim := 1
  wf := scatter_S8192_S139264x1_S139264_n_0_0_1_wf
def gather_S8192_S139264x1_S139264_n_0_n_n_0_1_1 : GatherDims S8192 S139264x1 S139264 where
  offsetDims := []
  collapsedSliceDims := [0]
  operandBatchingDims := []
  startIndicesBatchingDims := []
  startIndexMap := [0]
  indexVectorDim := 1
  sliceSizes := ![1]
  wf := gather_S8192_S139264x1_S139264_n_0_n_n_0_1_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def gather_S8192x512_S139264x1_S139264x512_1_0_n_n_0_1_1512 : GatherDims S8192x512 S139264x1 S139264x512 where
  offsetDims := [1]
  collapsedSliceDims := [0]
  operandBatchingDims := []
  startIndicesBatchingDims := []
  startIndexMap := [0]
  indexVectorDim := 1
  sliceSizes := ![1, 512]
  wf := gather_S8192x512_S139264x1_S139264x512_1_0_n_n_0_1_1512_wf
def scatter_S8192x512_S139264x1_S139264x512_1_0_0_1 : ScatterDims S8192x512 S139264x1 S139264x512 where
  updateWindowDims := [1]
  insertedWindowDims := [0]
  scatterDimsToOperandDims := [0]
  indexVectorDim := 1
  wf := scatter_S8192x512_S139264x1_S139264x512_1_0_0_1_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192x1_S139264x1_S139264x1_1_0_n_n_0_1_11 : GatherDims S8192x1 S139264x1 S139264x1 where
  offsetDims := [1]
  collapsedSliceDims := [0]
  operandBatchingDims := []
  startIndicesBatchingDims := []
  startIndexMap := [0]
  indexVectorDim := 1
  sliceSizes := ![1, 1]
  wf := gather_S8192x1_S139264x1_S139264x1_1_0_n_n_0_1_11_wf
def scatter_S8192x1_S139264x1_S139264x1_1_0_0_1 : ScatterDims S8192x1 S139264x1 S139264x1 where
  updateWindowDims := [1]
  insertedWindowDims := [0]
  scatterDimsToOperandDims := [0]
  indexVectorDim := 1
  wf := scatter_S8192x1_S139264x1_S139264x1_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S139264x1_S139264x256_1_0_n_n_0_1_1256 : GatherDims S8192x256 S139264x1 S139264x256 where
  offsetDims := [1]
  collapsedSliceDims := [0]
  operandBatchingDims := []
  startIndicesBatchingDims := []
  startIndexMap := [0]
  indexVectorDim := 1
  sliceSizes := ![1, 256]
  wf := gather_S8192x256_S139264x1_S139264x256_1_0_n_n_0_1_1256_wf
def scatter_S8192x256_S139264x1_S139264x256_1_0_0_1 : ScatterDims S8192x256 S139264x1 S139264x256 where
  updateWindowDims := [1]
  insertedWindowDims := [0]
  scatterDimsToOperandDims := [0]
  indexVectorDim := 1
  wf := scatter_S8192x256_S139264x1_S139264x256_1_0_0_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.SimSpec.lean ====
/-
  The function both programs compute, stated once over plain arrays.

  Given a matrix `a` of 8192 rows of 256 features, a matrix `b` of 256 rows and 8192 columns, and one positive
  weight `p r` per row, the SCORE of row `r` against column `j` is the inner product `∑ k, a r k · b k j`.  Each row
  of scores is shifted by its largest entry, exponentiated, scaled by the row's weight, divided by the row's total
  of those weighted exponentials, and passed through the logistic function:

      result r j = logistic ( exp (score r j − top r) · p r  /  ∑ j', exp (score r j' − top r) · p r ).

  Everything is read on the extended reals with the exact operations; nothing below needs an entry to be finite,
  because the two programs apply the SAME operations in the SAME order to each entry — they differ only in how the
  sums are laid out in memory and in how the logistic function and the matrix product are spelt.
-/
import Idealize.ShloMosaic.PureOps.Ideal
import Idealize.ShloMosaic.Lib.ValueIdx

noncomputable section

namespace Cert.SimSoftmax

open Idealize.ShloMosaic Idealize.ShloMosaic.ValueIdx

/-- 8192 rows of 256 features. -/
abbrev Rows : Shape := ⟨2, ![8192, 256]⟩
/-- 256 feature rows of 8192 columns: the transposed layout of `Rows`. -/
abbrev Cols : Shape := ⟨2, ![256, 8192]⟩
/-- One weight per row, kept as a column. -/
abbrev Wts : Shape := ⟨2, ![8192, 1]⟩
/-- The square result: one entry per pair of rows. -/
abbrev Sq : Shape := ⟨2, ![8192, 8192]⟩

/-- The score of row `r` of `a` against column `j` of `b`: their inner product over the 256 features. -/
def score (a : Rows.Idx → EReal) (b : Cols.Idx → EReal) (r j : Fin 8192) : EReal :=
  ∑ k : Fin 256, a (ix2 r k) * b (ix2 k j)

/-- The largest score in row `r`: the running maximum over the columns, started from the f32 pattern of −∞ (kept as
    the pattern; both programs start from the same word, so its value is never needed). -/
def top (a : Rows.Idx → EReal) (b : Cols.Idx → EReal) (r : Fin 8192) : EReal :=
  (Finset.univ : Finset (Fin 8192)).fold max (Ideal.ofBits .f32 0xFF800000#32) (fun j => score a b r j)

/-- The shifted score exponentiated and scaled by the row's weight. -/
def wexp (a : Rows.Idx → EReal) (b : Cols.Idx → EReal) (p : Wts.Idx → EReal) (r j : Fin 8192) : EReal :=
  Ideal.exp (score a b r j - top a b r) * p (ix2 r 0)

/-- The row's total of weighted exponentials. -/
def total (a : Rows.Idx → EReal) (b : Cols.Idx → EReal) (p : Wts.Idx → EReal) (r : Fin 8192) : EReal :=
  ∑ j : Fin 8192, wexp a b p r j

/-- One entry of the result: the logistic function of the entry's share of its row's total. -/
def entry (a : Rows.Idx → EReal) (b : Cols.Idx → EReal) (p : Wts.Idx → EReal) (r j : Fin 8192) : EReal :=
  Ideal.logistic (Ideal.div (wexp a b p r j) (total a b p r))

/-- The whole result array. -/
def result (a : Rows.Idx → EReal) (b : Cols.Idx → EReal) (p : Wts.Idx → EReal) : Sq.Idx → EReal :=
  fun i => entry a b p (i 0) (i 1)

theorem result_ix2 (a : Rows.Idx → EReal) (b : Cols.Idx → EReal) (p : Wts.Idx → EReal) (r j : Fin 8192) :
    result a b p (ix2 r j) = entry a b p r j := rfl

/-- The f32 pattern of 1.0 denotes the extended real 1. -/
theorem ofBits_one_f32 : Ideal.ofBits .f32 0x3F800000#32 = 1 := by
  simp [Ideal.ofBits, Ideal.ieee, -EReal.coe_mul]; norm_num

/-- The logistic function spelt out with a quotient, a sum, an exponential and a negation — the form a program takes
    when it expands the function instead of calling it — is the logistic function. -/
theorem logistic_expanded (x : EReal) :
    Ideal.div (Ideal.ofBits .f32 0x3F800000#32) (Ideal.ofBits .f32 0x3F800000#32 + Ideal.exp (-x)) = Ideal.logistic x := by
  rw [ofBits_one_f32]; rfl

end Cert.SimSoftmax

end
-- ==== Proof.RefTail.lean ====
/-
  The reference's last eighteen operations, read at an index.

  After the three graph-convolution layers the reference holds the node features (8192 × 256, buffer %86) and the node
  weights (8192 × 1, buffer %69).  It transposes the features, multiplies the features by their transpose, takes each row's
  maximum, subtracts it, exponentiates, scales by the row's weight, sums each row, divides, and applies the logistic
  function spelt as 1 / (1 + exp (−x)).  Read at entry (r, j), stage by stage, this is `SimSoftmax.result` of the
  features, their transpose and the weights: the matrix product is the sum over the 256 features, the row maximum is the
  running maximum from the −∞ pattern, the row sum starts from the zero pattern, and the spelt-out logistic function is
  the logistic function.  The features and the weights themselves are never opened here.
-/
import proofs.«128343_j90847148245060_2_alg».proof.Proof.RefReadP
import proofs.«128343_j90847148245060_2_alg».proof.Proof.SimSpec
import Idealize.ShloMosaic.PureOps.Ideal.Laws

noncomputable section

namespace Cert.ReferenceIdeal.Tail

open Cert.ReferenceIdeal Cert.ReferenceIdeal.Gen Cert.ReferenceIdeal.ReadP Idealize.ShloMosaic Idealize.ShloMosaic.ValueIdx
open Cert.SimSoftmax

variable (x0 : (⟨S8192x512, .f32⟩ : BufTy).Contents (Elt Ideal)) (x1 : (⟨S2x131072, .i32⟩ : BufTy).Contents (Elt Ideal)) (x2 : (⟨S512x512, .f32⟩ : BufTy).Contents (Elt Ideal)) (x3 : (⟨S512, .f32⟩ : BufTy).Contents (Elt Ideal)) (x4 : (⟨S512x256, .f32⟩ : BufTy).Contents (Elt Ideal)) (x5 : (⟨S256, .f32⟩ : BufTy).Contents (Elt Ideal)) (x6 : (⟨S512x1, .f32⟩ : BufTy).Contents (Elt Ideal)) (x7 : (⟨S1, .f32⟩ : BufTy).Contents (Elt Ideal))

/-- The node features the reference computes (buffer %86), as a function of the arguments. -/
abbrev feat : Rows.Idx → EReal := val_main_v86 (F := Ideal) x0 x1 x2 x3 x4 x5
/-- Their transpose (buffer %87). -/
abbrev featT : Cols.Idx → EReal := val_main_v87 (F := Ideal) x0 x1 x2 x3 x4 x5
/-- The node weights (buffer %69). -/
abbrev wts : Wts.Idx → EReal := val_main_v69 (F := Ideal) x0 x1 x2 x3 x6 x7

/-- The product of the features with their transpose, at `(r, j)`: the score. -/
theorem score_apply (r j : Fin 8192) :
    val_main_v88 (F := Ideal) x0 x1 x2 x3 x4 x5 (ix2 r j) = score (feat x0 x1 x2 x3 x4 x5) (featT x0 x1 x2 x3 x4 x5) r j := by
  rw [val_main_v88_apply]
  refine Finset.sum_congr rfl fun k _ => ?_
  have el : lidx_main_v88 (ix2 r j) k = ix2 r k := funext fun a => Fin.ext (by match a with | ⟨0, _⟩ => rfl | ⟨1, _⟩ => rfl)
  have er : ridx_main_v88 (ix2 r j) k = ix2 k j := funext fun a => Fin.ext (by match a with | ⟨0, _⟩ => rfl | ⟨1, _⟩ => rfl)
  rw [el, er]

/-- The row maximum broadcast back across the row, at `(r, j)`: the largest score of row `r`. -/
theorem top_apply (r j : Fin 8192) :
    val_main_v91 (F := Ideal) x0 x1 x2 x3 x4 x5 (ix2 r j) = top (feat x0 x1 x2 x3 x4 x5) (featT x0 x1 x2 x3 x4 x5) r := by
  rw [val_main_v91_apply, val_main_v90_apply]
  unfold val_main_v89
  have hred : S8192x8192.Reduces [1] S8192 := by decide
  rw [Host.reduce_eq_fold_single FloatOps.maximumf _ _ reducesTo_S8192x8192_S8192_d1 hred h_S_]
  unfold top
  refine congrArg (Finset.fold max _ · _) (funext fun j' => ?_)
  refine (congrArg (val_main_v88 (F := Ideal) x0 x1 x2 x3 x4 x5) (funext fun a => Fin.ext ?_)).trans (score_apply x0 x1 x2 x3 x4 x5 r j')
  match a with
  | ⟨0, _⟩ => rfl
  | ⟨1, _⟩ => rfl

/-- The weighted exponential at `(r, j)`. -/
theorem wexp_apply (r j : Fin 8192) :
    val_main_v95 (F := Ideal) x0 x1 x2 x3 x4 x5 x6 x7 (ix2 r j)
      = wexp (feat x0 x1 x2 x3 x4 x5) (featT x0 x1 x2 x3 x4 x5) (wts x0 x1 x2 x3 x6 x7) r j := by
  rw [val_main_v95_apply, val_main_v93_apply, val_main_v92_apply, val_main_v94_apply, score_apply, top_apply]
  have ew : idx_main_v94 (ix2 r j) = ix2 r (0 : Fin 1) := funext fun a => Fin.ext (by match a with | ⟨0, _⟩ => rfl | ⟨1, _⟩ => rfl)
  rw [ew]
  unfold wexp
  simp only [Ideal.mulf_def, Ideal.hostUnary_exp_def, Ideal.subf_def]

/-- The row total broadcast back across the row, at `(r, j)`. -/
theorem total_apply (r j : Fin 8192) :
    val_main_v98 (F := Ideal) x0 x1 x2 x3 x4 x5 x6 x7 (ix2 r j)
      = total (feat x0 x1 x2 x3 x4 x5) (featT x0 x1 x2 x3 x4 x5) (wts x0 x1 x2 x3 x6 x7) r := by
  rw [val_main_v98_apply, val_main_v97_apply, val_main_v96_apply, val_main_cst_18_apply]
  rw [show FloatOps.ofBits (F := Ideal) .f32 0x00000000#32 = 0 from Ideal.ofBits_zero_f32, zero_add]
  unfold total
  refine Finset.sum_congr rfl fun k _ => ?_
  refine (congrArg (val_main_v95 (F := Ideal) x0 x1 x2 x3 x4 x5 x6 x7) (funext fun a => Fin.ext ?_)).trans (wexp_apply x0 x1 x2 x3 x4 x5 x6 x7 r k)
  match a with
  | ⟨0, _⟩ => rfl
  | ⟨1, _⟩ => rfl

/-- The reference's result array is `SimSoftmax.result` of the features, their transpose and the weights. -/
theorem result_eq :
    val_main_v105 (F := Ideal) x0 x1 x2 x3 x4 x5 x6 x7
      = result (feat x0 x1 x2 x3 x4 x5) (featT x0 x1 x2 x3 x4 x5) (wts x0 x1 x2 x3 x6 x7) := by
  funext i
  obtain ⟨r, j, rfl⟩ : ∃ (r j : Fin 8192), i = ix2 r j := ⟨i 0, i 1, eq_ix2 i⟩
  rw [result_ix2, val_main_v105_apply, val_main_v104_apply, val_main_cst_20_apply, val_main_v103_apply, val_main_v102_apply,
    val_main_cst_19_apply, val_main_v101_apply, val_main_v100_apply, val_main_v99_apply, wexp_apply, total_apply]
  unfold entry
  simp only [Ideal.hostDivf_def, Ideal.addf_def, Ideal.hostUnary_exp_def, Ideal.hostNegf_def, Ideal.negf_def, Ideal.ofBits_def]
  exact logistic_expanded _

end Cert.ReferenceIdeal.Tail

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.KernelChunk.lean ====
/-
  One 128-row chunk of the kernel's body, read at an index.

  The body holds the whole transposed key matrix (256 × 8192) and, per chunk, 128 query rows (128 × 256) and their 128
  weights (128 × 1).  It forms the 128 × 8192 scores by one matrix product into a zero accumulator, takes each row's
  maximum along the lanes and broadcasts it back across the row, subtracts, exponentiates, scales by the row's weight
  (broadcast across the row), sums along the lanes, broadcasts the sum back, divides, and applies the logistic function.
  Read at entry (p, j) this is `centry` below: every re-laying (a cast to a column, a broadcast across the row) reads the
  one value of row p, the lane maximum is the running maximum over the row's 8192 scores, and the lane sum is their sum.
  The two chunks of a grid step apply this same function to rows 0–127 and rows 128–255 of the step's block.
-/
import proofs.«128343_j90847148245060_2_alg».proof.Proof.Gen.KernelIdeal.Skeleton
import proofs.«128343_j90847148245060_2_alg».proof.Proof.SimSpec
import proofs.«128343_j90847148245060_2_alg».proof.Proof.LibDot
import proofs.«128343_j90847148245060_2_alg».proof.Proof.LibColumn
import Idealize.ShloMosaic.PureOps.Ideal.Laws
import Idealize.ShloMosaic.Lib.ValueIdx
import Idealize.ShloMosaic.Lib.Pipeline.Value

noncomputable section

namespace Cert.KernelIdeal.Chunk

open Cert.KernelIdeal Cert.KernelIdeal.Gen Idealize.ShloMosaic Idealize.ShloMosaic.ValueIdx

/-! ## The chunk's function -/

/-- The score of chunk row `p` against key column `j`. -/
def cscore (keys : FVec Ideal S256x8192 .bf16) (q : FVec Ideal S128x256 .bf16) (p : Fin 128) (j : Fin 8192) : EReal :=
  ∑ k : Fin 256, q (ix2 p k) * keys (ix2 k j)

/-- The largest score of chunk row `p`. -/
def ctop (keys : FVec Ideal S256x8192 .bf16) (q : FVec Ideal S128x256 .bf16) (p : Fin 128) : EReal :=
  (Finset.univ : Finset (Fin 8192)).fold max (Ideal.ofBits .f32 0xFF800000#32) (fun j => cscore keys q p j)

/-- The shifted score exponentiated and scaled by the row's weight. -/
def cwexp (keys : FVec Ideal S256x8192 .bf16) (q : FVec Ideal S128x256 .bf16) (w : FVec Ideal S128x1 .f32)
    (p : Fin 128) (j : Fin 8192) : EReal :=
  Ideal.exp (cscore keys q p j - ctop keys q p) * w (ix2 p 0)

/-- One entry of the chunk's result. -/
def centry (keys : FVec Ideal S256x8192 .bf16) (q : FVec Ideal S128x256 .bf16) (w : FVec Ideal S128x1 .f32)
    (p : Fin 128) (j : Fin 8192) : EReal :=
  Ideal.logistic (Ideal.div (cwexp keys q w p j) (∑ j' : Fin 8192, cwexp keys q w p j'))

/-! ## The pointwise operations at an index -/

theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl

/-! ## The non-pointwise operations at an index -/

/-- The matrix product of the chunk's query rows with the keys, into the zero accumulator: the score. -/
theorem scores_apply (keys : FVec Ideal S256x8192 .bf16) (q : FVec Ideal S128x256 .bf16) (p : Fin 128) (j : Fin 8192) :
    matmul dot_S128x256_S256x8192_S128x8192_1_0_0_1_n_n none (shapeCast S128x256 q shapeCasts_S128x256_S128x256)
        (shapeCast S256x8192 keys shapeCasts_S256x8192_S256x8192) (constant S128x8192 .f32 0x00000000#32) (ix2 p j)
      = cscore keys q p j := by
  rw [shapeCast_self, shapeCast_self]
  exact Cert.LibDot.matmul_zero_plain_apply dot_S128x256_S256x8192_S128x8192_1_0_0_1_n_n rfl rfl rfl rfl rfl rfl none q keys (ix2 p j)

/-- A row's lane maximum, cast to a column and broadcast back across the row: at `(p, j)` the running maximum of row `p`. -/
theorem rowmax_col (M : FVec Ideal S128x8192 .f32) (hφ : FKind.Formats .f32) (hacc : (0xFF800000#32 : BitVec 32) = FKind.maximumf.neutral .f32 hφ)
    (p : Fin 128) (j : Fin 8192) :
    broadcastTo S128x8192 (shapeCast S128x1 (multiReduction .maximumf [1] S128 M 0xFF800000#32 reduces_S128x8192_S128 hφ hacc)
        shapeCasts_S128_S128x1) broadcasts_S128x1_S128x8192 (ix2 p j)
      = (Finset.univ : Finset (Fin 8192)).fold max (Ideal.ofBits .f32 0xFF800000#32) (fun j' => M (ix2 p j')) := by
  rw [Cert.LibColumn.broadcastTo_a1_ab_apply, Cert.LibColumn.shapeCast_a_a1_apply]
  refine (Ideal.multiReduction_maximumf_single M 0xFF800000#32 reduces_S128x8192_S128 hφ hacc (ix1 p)).trans ?_
  refine congrArg (Finset.fold max _ · _) (funext fun j' => congrArg M (funext fun a => Fin.ext ?_))
  match a with
  | ⟨0, _⟩ => rfl
  | ⟨1, _⟩ => rfl

/-- A row's lane sum, cast to a column and broadcast back across the row: at `(p, j)` the sum of row `p`. -/
theorem rowsum_col (M : FVec Ideal S128x8192 .f32) (hφ : FKind.Formats .f32) (hacc : (0x00000000#32 : BitVec 32) = FKind.add.neutral .f32 hφ)
    (p : Fin 128) (j : Fin 8192) :
    broadcastTo S128x8192 (shapeCast S128x1 (multiReduction .add [1] S128 M 0x00000000#32 reduces_S128x8192_S128 hφ hacc)
        shapeCasts_S128_S128x1) broadcasts_S128x1_S128x8192 (ix2 p j)
      = ∑ j' : Fin 8192, M (ix2 p j') := by
  rw [Cert.LibColumn.broadcastTo_a1_ab_apply, Cert.LibColumn.shapeCast_a_a1_apply]
  refine (Ideal.multiReduction_add_single M 0x00000000#32 reduces_S128x8192_S128 hφ hacc (ix1 p)).trans ?_
  refine Finset.sum_congr rfl fun j' _ => congrArg M (funext fun a => Fin.ext ?_)
  match a with
  | ⟨0, _⟩ => rfl
  | ⟨1, _⟩ => rfl

/-- The chunk's weights, broadcast across the row: at `(p, j)` the weight of row `p`. -/
theorem weight_col (w : FVec Ideal S128x1 .f32) (p : Fin 128) (j : Fin 8192) :
    broadcastTo S128x8192 (shapeCast S128x1 w shapeCasts_S128x1_S128x1) broadcasts_S128x1_S128x8192 (ix2 p j) = w (ix2 p 0) := by
  rw [Cert.LibColumn.broadcastTo_a1_ab_apply, shapeCast_self]

/-! ## The body's four re-laid values, named

The body's stored value is a tree of pointwise operations over four values that are not pointwise: the score matrix, a
row's maximum laid back across the row, a row's sum laid back across the row, and the weights laid across the row. They
are named here exactly as the body writes them, so that the stored value is their composition by definition. -/

/-- The score matrix of a chunk: its query rows times the keys, into the zero accumulator. -/
def scoresVec (keys : FVec Ideal S256x8192 .bf16) (q : FVec Ideal S128x256 .bf16) : FVec Ideal S128x8192 .f32 :=
  matmul dot_S128x256_S256x8192_S128x8192_1_0_0_1_n_n none (shapeCast S128x256 q shapeCasts_S128x256_S128x256)
    (shapeCast S256x8192 keys shapeCasts_S256x8192_S256x8192) (constant S128x8192 .f32 0x00000000#32)

/-- Each row's maximum, laid back across the row. -/
def laneMax (M : FVec Ideal S128x8192 .f32) : FVec Ideal S128x8192 .f32 :=
  broadcastTo S128x8192 (shapeCast S128x1 (multiReduction .maximumf [1] S128 M 0xFF800000#32 reduces_S128x8192_S128 (.inl rfl) rfl)
    shapeCasts_S128_S128x1) broadcasts_S128x1_S128x8192

/-- Each row's sum, laid back across the row. -/
def laneSum (M : FVec Ideal S128x8192 .f32) : FVec Ideal S128x8192 .f32 :=
  broadcastTo S128x8192 (shapeCast S128x1 (multiReduction .add [1] S128 M 0x00000000#32 reduces_S128x8192_S128 (.inl rfl) rfl)
    shapeCasts_S128_S128x1) broadcasts_S128x1_S128x8192

/-- The chunk's weights, laid across the row. -/
def weightsVec (w : FVec Ideal S128x1 .f32) : FVec Ideal S128x8192 .f32 :=
  broadcastTo S128x8192 (shapeCast S128x1 w shapeCasts_S128x1_S128x1) broadcasts_S128x1_S128x8192

theorem scoresVec_apply (keys : FVec Ideal S256x8192 .bf16) (q : FVec Ideal S128x256 .bf16) (p : Fin 128) (j : Fin 8192) :
    scoresVec keys q (ix2 p j) = cscore keys q p j := scores_apply keys q p j

theorem laneMax_apply (M : FVec Ideal S128x8192 .f32) (p : Fin 128) (j : Fin 8192) :
    laneMax M (ix2 p j) = (Finset.univ : Finset (Fin 8192)).fold max (Ideal.ofBits .f32 0xFF800000#32) (fun j' => M (ix2 p j')) :=
  rowmax_col M (.inl rfl) rfl p j

theorem laneSum_apply (M : FVec Ideal S128x8192 .f32) (p : Fin 128) (j : Fin 8192) :
    laneSum M (ix2 p j) = ∑ j' : Fin 8192, M (ix2 p j') :=
  rowsum_col M (.inl rfl) rfl p j

theorem weightsVec_apply (w : FVec Ideal S128x1 .f32) (p : Fin 128) (j : Fin 8192) :
    weightsVec w (ix2 p j) = w (ix2 p 0) := weight_col w p j

/-! ## The chunk's payload at an index -/

/-- The weighted exponentials of a chunk, as the body forms them. -/
def wexpVec (keys : FVec Ideal S256x8192 .bf16) (q : FVec Ideal S128x256 .bf16) (w : FVec Ideal S128x1 .f32) : FVec Ideal S128x8192 .f32 :=
  mulf (exp (subf (scoresVec keys q) (laneMax (scoresVec keys q)))) (weightsVec w)

/-- The first chunk's stored value is the logistic function of each weighted exponential's share of its row's sum. -/
theorem pay2_eq (keys : FVec Ideal S256x8192 .bf16) (q : FVec Ideal S128x256 .bf16) (w : FVec Ideal S128x1 .f32) :
    k0_pay2 (F := Ideal) keys q w = logistic (divf (wexpVec keys q w) (laneSum (wexpVec keys q w))) := rfl

/-- The second chunk's stored value is the same function of its own rows and weights. -/
theorem pay3_eq (keys : FVec Ideal S256x8192 .bf16) (q : FVec Ideal S128x256 .bf16) (w : FVec Ideal S128x1 .f32) :
    k0_pay3 (F := Ideal) keys q w = logistic (divf (wexpVec keys q w) (laneSum (wexpVec keys q w))) := rfl

theorem wexpVec_apply (keys : FVec Ideal S256x8192 .bf16) (q : FVec Ideal S128x256 .bf16) (w : FVec Ideal S128x1 .f32)
    (p : Fin 128) (j : Fin 8192) : wexpVec keys q w (ix2 p j) = cwexp keys q w p j := by
  unfold wexpVec
  rw [mulf_apply, exp_apply, subf_apply, scoresVec_apply, laneMax_apply, weightsVec_apply]
  unfold cwexp ctop
  refine congrArg (fun z => Ideal.exp (cscore keys q p j - z) * w (ix2 p 0)) ?_
  exact congrArg (Finset.fold max _ · _) (funext fun j' => scoresVec_apply keys q p j')

/-- The first chunk's stored value at `(p, j)`. -/
theorem pay2_apply (keys : FVec Ideal S256x8192 .bf16) (q : FVec Ideal S128x256 .bf16) (w : FVec Ideal S128x1 .f32)
    (p : Fin 128) (j : Fin 8192) : k0_pay2 (F := Ideal) keys q w (ix2 p j) = centry keys q w p j := by
  rw [pay2_eq, logistic_apply, divf_apply, laneSum_apply, wexpVec_apply]
  unfold centry
  refine congrArg (fun z => Ideal.logistic (Ideal.div (cwexp keys q w p j) z)) ?_
  exact Finset.sum_congr rfl fun j' _ => wexpVec_apply keys q w p j'

/-- The second chunk's stored value at `(p, j)`. -/
theorem pay3_apply (keys : FVec Ideal S256x8192 .bf16) (q : FVec Ideal S128x256 .bf16) (w : FVec Ideal S128x1 .f32)
    (p : Fin 128) (j : Fin 8192) : k0_pay3 (F := Ideal) keys q w (ix2 p j) = centry keys q w p j := by
  rw [pay3_eq, ← pay2_eq]
  exact pay2_apply keys q w p j

end Cert.KernelIdeal.Chunk

end
-- ==== Proof.KernelBlocks.lean ====
/-
  From the chunks to the whole result array.

  Grid point t holds rows 256·t … 256·t + 255 of the bf16 features (a 256 × 256 block), the whole transposed key matrix,
  and the same rows of the weights; it writes rows 256·t … 256·t + 255 of the result.  Its two chunks fill the upper and
  the lower half of that block, each by the chunk function of its own 128 rows.  So every entry (r, j) of the result
  array is `SimSoftmax.entry` of row r: the block that holds row r is the one at point r / 256, the 32 blocks tile the
  array, and what a point writes depends only on the rows it holds and on the keys, which every point reads whole.
-/
import proofs.«128343_j90847148245060_2_alg».proof.Proof.Gen.KernelIdeal.Value
import proofs.«128343_j90847148245060_2_alg».proof.Proof.KernelChunk
import proofs.«128343_j90847148245060_2_alg».proof.Proof.SimSpec
import Idealize.ShloMosaic.Lib.Pipeline.Value
import Idealize.ShloMosaic.Lib.ValueIdx

noncomputable section

namespace Cert.KernelIdeal.Blocks

open Cert.KernelIdeal Cert.KernelIdeal.Gen Cert.KernelIdeal.Chunk Idealize.ShloMosaic Idealize.ShloMosaic.TcCoe Idealize.SL.Sem
open Idealize.ShloMosaic.ValueIdx Cert.SimSoftmax
open Idealize.ShloMosaic.Pipeline (Dat)

/-! ## A chunk against the array -/

/-- A chunk whose query rows are rows of `a`, whose keys are `b` and whose weights are entries of `p` computes, in its
    row `q`, the entries of the array row `r` that row `q` holds. -/
theorem centry_eq (K : FVec Ideal S256x8192 .bf16) (Q : FVec Ideal S128x256 .bf16) (W : FVec Ideal S128x1 .f32)
    (a : Rows.Idx → EReal) (b : Cols.Idx → EReal) (p : Wts.Idx → EReal) (q : Fin 128) (r : Fin 8192)
    (hQ : ∀ k : Fin 256, Q (ix2 q k) = a (ix2 r k)) (hK : ∀ (k : Fin 256) (j : Fin 8192), K (ix2 k j) = b (ix2 k j))
    (hW : W (ix2 q 0) = p (ix2 r 0)) (j : Fin 8192) : centry K Q W q j = entry a b p r j := by
  have hs : ∀ j' : Fin 8192, cscore K Q q j' = score a b r j' := fun j' =>
    Finset.sum_congr rfl fun k _ => by rw [hQ k, hK k j']
  have ht : ctop K Q q = top a b r := congrArg (Finset.fold max _ · _) (funext hs)
  have hw : ∀ j' : Fin 8192, cwexp K Q W q j' = wexp a b p r j' := fun j' => by
    unfold cwexp wexp; rw [hs j', ht, hW]
  unfold centry entry total
  rw [hw j, Finset.sum_congr rfl fun j' _ => hw j']

/-! ## A block against the array -/

theorem hz : (![0, 0] : Fin 2 → Nat) = fun _ => 0 := funext fun a => by fin_cases a <;> rfl

/-- What a grid step leaves in the result's block, from its three input blocks: if block row `r` holds array row `ρ r`,
    entry `(r, j)` of the block is the array's entry `(ρ r, j)`.  Rows 0–127 come from the first chunk and rows
    128–255 from the second. -/
theorem out_block_apply (x0 : Vec Ideal S256x256 .bf16) (x1 : Vec Ideal S256x8192 .bf16) (x2 : Vec Ideal S256x1 .f32)
    (a : Rows.Idx → EReal) (b : Cols.Idx → EReal) (p : Wts.Idx → EReal) (ρ : Fin 256 → Fin 8192)
    (h0 : ∀ (r k : Fin 256), x0 (ix2 r k) = a (ix2 (ρ r) k))
    (h1 : ∀ (k : Fin 256) (j : Fin 8192), x1 (ix2 k j) = b (ix2 k j))
    (h2 : ∀ r : Fin 256, x2 (ix2 r 0) = p (ix2 (ρ r) 0))
    (y : S256x8192.Idx) :
    out0_3 x0 x1 x2 y = entry a b p (ρ ⟨(y 0).val, idx2_lt0 y⟩) ⟨(y 1).val, idx2_lt1 y⟩ := by
  unfold out0_3
  refine View.canon_apply_of_pieces (Val := Elt Ideal) (e := .f32)
    (G := fun y : S256x8192.Idx => entry a b p (ρ ⟨(y 0).val, idx2_lt0 y⟩) ⟨(y 1).val, idx2_lt1 y⟩) _ ?_ y (cover0_3 _ _ y)
  have hkeys : View.ld x1 r0_0 = x1 := View.ld_unit_zero (S := S256x8192) hz _ x1
  intro pc hpc
  rcases List.mem_cons.mp hpc with rfl | hpc
  · -- the second chunk: block rows 128 … 255
    intro x
    obtain ⟨q, j, rfl⟩ : ∃ (q : Fin 128) (j : Fin 8192), x = ix2 q j := ⟨x 0, x 1, eq_ix2 x⟩
    have hq : 128 + q.val < 256 := by have := q.isLt; omega
    refine (pay3_apply (View.ld x1 r0_0) (View.ld x0 r0_4) (View.ld x2 r0_5) q j).trans ?_
    refine (centry_eq (View.ld x1 r0_0) (View.ld x0 r0_4) (View.ld x2 r0_5) a b p q (ρ ⟨128 + q.val, hq⟩)
      (fun k => ?_) (fun k j' => ?_) ?_ j).trans ?_
    · refine Eq.trans (congrArg x0 (funext fun ax => Fin.ext ?_)) (h0 ⟨128 + q.val, hq⟩ k)
      match ax with
      | ⟨0, _⟩ => show 128 + 1 * q.val = 128 + q.val; omega
      | ⟨1, _⟩ => show 0 + 1 * k.val = k.val; omega
    · rw [hkeys]; exact h1 k j'
    · refine Eq.trans (congrArg x2 (funext fun ax => Fin.ext ?_)) (h2 ⟨128 + q.val, hq⟩)
      match ax with
      | ⟨0, _⟩ => show 128 + 1 * q.val = 128 + q.val; omega
      | ⟨1, _⟩ => rfl
    · show entry a b p (ρ ⟨128 + q.val, hq⟩) j = entry a b p (ρ ⟨128 + 1 * q.val, _⟩) ⟨0 + 1 * j.val, _⟩
      congr 2
      · exact Fin.ext (by show 128 + q.val = 128 + 1 * q.val; omega)
      · exact Fin.ext (by show j.val = 0 + 1 * j.val; omega)
  · -- the first chunk: block rows 0 … 127
    obtain rfl := List.mem_singleton.mp hpc
    intro x
    obtain ⟨q, j, rfl⟩ : ∃ (q : Fin 128) (j : Fin 8192), x = ix2 q j := ⟨x 0, x 1, eq_ix2 x⟩
    have hq : q.val < 256 := by have := q.isLt; omega
    refine (pay2_apply (View.ld x1 r0_0) (View.ld x0 r0_1) (View.ld x2 r0_2) q j).trans ?_
    refine (centry_eq (View.ld x1 r0_0) (View.ld x0 r0_1) (View.ld x2 r0_2) a b p q (ρ ⟨q.val, hq⟩)
      (fun k => ?_) (fun k j' => ?_) ?_ j).trans ?_
    · refine Eq.trans (congrArg x0 (funext fun ax => Fin.ext ?_)) (h0 ⟨q.val, hq⟩ k)
      match ax with
      | ⟨0, _⟩ => show 0 + 1 * q.val = q.val; omega
      | ⟨1, _⟩ => show 0 + 1 * k.val = k.val; omega
    · rw [hkeys]; exact h1 k j'
    · refine Eq.trans (congrArg x2 (funext fun ax => Fin.ext ?_)) (h2 ⟨q.val, hq⟩)
      match ax with
      | ⟨0, _⟩ => show 0 + 1 * q.val = q.val; omega
      | ⟨1, _⟩ => rfl
    · show entry a b p (ρ ⟨q.val, hq⟩) j = entry a b p (ρ ⟨0 + 1 * q.val, _⟩) ⟨0 + 1 * j.val, _⟩
      congr 2
      · exact Fin.ext (by show q.val = 0 + 1 * q.val; omega)
      · exact Fin.ext (by show j.val = 0 + 1 * j.val; omega)

/-! ## The windows' blocks are rows of their arrays -/

variable (m : (ℓ : Loc nD τ sig) → Buf (Elt Ideal) ℓ) (ρ : Dev nD → PrngReg)

/-- The printed index maps over the 32 grid points: the feature, weight and result windows move down one block of rows
    per point; the key window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt_grid (t : Fin cfg0.N) : t.val < 32 := Nat.lt_of_lt_of_eq t.isLt N_0

/-- The array row that block row `r` of point `t` holds. -/
def rowOf (t : Fin cfg0.N) (r : Fin 256) : Fin 8192 :=
  ⟨t.val * 256 + r.val, by have := lt_grid t; have := r.isLt; omega⟩

/-- Any array of the features' shape, read through the feature window's block at point `t`: its rows `256·t + r`. -/
theorem blk0_read (A : S8192x256.Idx → Ideal .bf16) (t : Fin cfg0.N) (r k : Fin 256) :
    ((cfg0.win 0).blk t).view.read (Elt Ideal) A (ix2 r k) = A (ix2 (rowOf t r) k) := by
  obtain ⟨e0, e1, -⟩ := idx_facts t
  rw [View.read_apply]
  show A _ = A _
  refine congrArg A (funext fun ax => Fin.ext ?_)
  match ax with
  | ⟨0, _⟩ => show win0_0.index t (0 : Fin 2) * 256 + 1 * r.val = t.val * 256 + r.val; rw [e0]; omega
  | ⟨1, _⟩ => show win0_0.index t (1 : Fin 2) * 256 + 1 * k.val = k.val; rw [e1]; omega

/-- Any array of the keys' shape, read through the key window's block at any point: the whole array. -/
theorem blk1_read (A : S256x8192.Idx → Ideal .bf16) (t : Fin cfg0.N) (k : Fin 256) (j : Fin 8192) :
    ((cfg0.win 1).blk t).view.read (Elt Ideal) A (ix2 k j) = A (ix2 k j) := by
  obtain ⟨-, -, e2, e3, -⟩ := idx_facts t
  rw [View.read_apply]
  show A _ = A _
  refine congrArg A (funext fun ax => Fin.ext ?_)
  match ax with
  | ⟨0, _⟩ => show win0_1.index t (0 : Fin 2) * 256 + 1 * k.val = k.val; rw [e2]; omega
  | ⟨1, _⟩ => show win0_1.index t (1 : Fin 2) * 8192 + 1 * j.val = j.val; rw [e3]; omega

/-- Any array of the weights' shape, read through the weight window's block at point `t`: its rows `256·t + r`. -/
theorem blk2_read (A : S8192x1.Idx → Ideal .f32) (t : Fin cfg0.N) (r : Fin 256) :
    ((cfg0.win 2).blk t).view.read (Elt Ideal) A (ix2 r 0) = A (ix2 (rowOf t r) 0) := by
  obtain ⟨-, -, -, -, e4, e5, -⟩ := idx_facts t
  rw [View.read_apply]
  show A _ = A _
  refine congrArg A (funext fun ax => Fin.ext ?_)
  match ax with
  | ⟨0, _⟩ => show win0_2.index t (0 : Fin 2) * 256 + 1 * r.val = t.val * 256 + r.val; rw [e4]; omega
  | ⟨1, _⟩ => show win0_2.index t (1 : Fin 2) * 1 + 1 * 0 = 0; rw [e5]

/-- The feature window's block at point `t`: rows `256·t + r` of the bf16 features the region finds. -/
theorem iblk0_apply (c : Dev nD) (t : Fin cfg0.N) (r k : Fin 256) :
    (iblk m c 0 t : Vec Ideal S256x256 .bf16) (ix2 r k) = (V m c main_v87 : S8192x256.Idx → Ideal .bf16) (ix2 (rowOf t r) k) :=
  blk0_read (V m c main_v87) t r k

/-- The key window's block at every point: the whole transposed matrix the region finds. -/
theorem iblk1_apply (c : Dev nD) (t : Fin cfg0.N) (k : Fin 256) (j : Fin 8192) :
    (iblk m c 1 t : Vec Ideal S256x8192 .bf16) (ix2 k j) = (V m c main_v88 : S256x8192.Idx → Ideal .bf16) (ix2 k j) :=
  blk1_read (V m c main_v88) t k j

/-- The weight window's block at point `t`: rows `256·t + r` of the weights the region finds. -/
theorem iblk2_apply (c : Dev nD) (t : Fin cfg0.N) (r : Fin 256) :
    (iblk m c 2 t : Vec Ideal S256x1 .f32) (ix2 r 0) = (V m c main_v69 : S8192x1.Idx → Ideal .f32) (ix2 (rowOf t r) 0) :=
  blk2_read (V m c main_v69) t r

/-! ## The result array -/

/-- The result the kernel's run leaves: `SimSoftmax.result` of the three arrays the region finds. -/
abbrev kernelResult (c : Dev nD) : S8192x8192.Idx → EReal :=
  result (V m c main_v87) (V m c main_v88) (V m c main_v69)

/-- `SimSoftmax.result` at an index whose coordinates are `r` and `j`. -/
theorem result_apply (a : Rows.Idx → EReal) (b : Cols.Idx → EReal) (p : Wts.Idx → EReal) (i : Sq.Idx) (r j : Fin 8192)
    (hr : (i 0).val = r.val) (hj : (i 1).val = j.val) : result a b p i = entry a b p r j := by
  show entry a b p ⟨(i 0).val, idx2_lt0 i⟩ ⟨(i 1).val, idx2_lt1 i⟩ = _
  congr 1
  · exact Fin.ext hr
  · exact Fin.ext hj

/-- The kernel's result at an index whose coordinates are `r` and `j`. -/
theorem kernelResult_apply (c : Dev nD) (i : S8192x8192.Idx) (r j : Fin 8192) (hr : (i 0).val = r.val) (hj : (i 1).val = j.val) :
    kernelResult m c i = entry (V m c main_v87) (V m c main_v88) (V m c main_v69) r j :=
  result_apply _ _ _ i r j hr hj

/-- Any array of the result's shape, read through the result window's block at point `t`. -/
theorem blk3_read (G : S8192x8192.Idx → Ideal .f32) (t : Fin cfg0.N) (y : ((cfg0.win 3).xblock (grid0.coords t)).Idx) :
    ((cfg0.win 3).blk t).view.read (Elt Ideal) G y = G (((cfg0.win 3).blk t).view.emb y) := by
  rw [View.read_apply]; rfl

/-- What point `t` writes back is block `t` of that result. -/
theorem flushed_eq (c : Dev nD) (t : Fin cfg0.N) :
    (dats m 0 c).flushed 3 t = ((cfg0.win 3).blk t).view.read (Elt Ideal) (kernelResult m c) := by
  obtain ⟨-, -, -, -, -, -, e6, e7⟩ := idx_facts t
  rw [Cert.KernelIdeal.Value.flushed3]
  funext y
  refine Eq.trans ?_ (blk3_read (kernelResult m c) t y).symm
  refine (out_block_apply (iblk m c 0 t) (iblk m c 1 t) (iblk m c 2 t) (V m c main_v87) (V m c main_v88) (V m c main_v69)
    (rowOf t) (iblk0_apply m c t) (iblk1_apply m c t) (iblk2_apply m c t) ((cfg0.win 3).xinj (grid0.coords t) y)).trans ?_
  refine (kernelResult_apply m c (((cfg0.win 3).blk t).view.emb y) _ _ ?_ ?_).symm
  · show win0_3.index t (0 : Fin 2) * 256 + 1 * (y 0).val = t.val * 256 + (y 0).val
    rw [e6]; omega
  · show win0_3.index t (1 : Fin 2) * 8192 + 1 * (y 1).val = (y 1).val
    rw [e7]; omega

/-- Every entry of the array lies in the block of the point that holds its row. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, e6, e7⟩ := idx_facts t
  refine ⟨t, flush0_3 t, ?_⟩
  show i ∈ ((View.whole main_v89).slice (win0_3.rect t)).set
  rw [View.set_slice_whole, Rect.mem_set_unit]
  intro ax
  match ax with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 8192 ≤ (i 1).val ∧ (i 1).val < win0_3.index t (1 : Fin 2) * 8192 + 8192
    rw [e7]; omega

/-- The result array after the run. -/
theorem final (c : Dev nD) : (dats m 0 c).arrAt 3 cfg0.N = kernelResult m c :=
  (dats m 0 c).arrAt_eq_of_cover 3 (kernelResult m c) (fun t _ => flushed_eq m c t) cover

/-- The kernel's run: the result array at `kernelResult`, the arguments unchanged. -/
theorem run : θ_run defs (onTc (τ := τ) (main (F := Ideal))) ⟨m, fun _ => 0, ρ⟩ fun r => ∀ c : Dev nD,
      r.2.mem ((c : Thread nD τ).loc main_v89) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Blocks

end
-- ==== Proof.HostFeat.lean ====
/-
  The bf16 features the region finds (the array of its first window).

  Before the region the kernel's program runs the three graph-convolution layers on the host, operation for operation
  the ones the reference runs, and then narrows the node features to bf16.  Reading the program's operations back from
  the launch contents, the array is the reference's feature stage (its buffer %86) of the same arguments, narrowed.
-/
import proofs.«128343_j90847148245060_2_alg».proof.Proof.Gen.KernelIdeal.Frame
import proofs.«128343_j90847148245060_2_alg».proof.Proof.RefReadP
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 53200000 in
/-- The first window's array is the reference's node features of the arguments, narrowed to bf16. -/
theorem V_feat (c : Dev nD) :
    @Eq (S8192x256.Idx → Ideal .bf16) (V m c main_v87)
      (truncf (F := Ideal) (s := S8192x256) (φ := .f32) .bf16 (Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32) := by
  dsimp only [V]
  simp only [hostOps0, hostOps0_1, hostOps0_2, hostOps0_3, hostOps0_4, List.flatten_cons, List.flatten_nil, List.append_nil,
    List.cons_append, List.nil_append]
  after_results_simp
  simp only [TRef.toBuf, TRef.ofBuf, cast_eq]
  rfl

end Cert.KernelIdeal.Host

end
-- ==== Proof.HostFeatT.lean ====
/-
  The transposed bf16 keys the region finds (the array of its second window).

  The last host operation before the region transposes the narrowed node features.  Reading the program's operations
  back from the launch contents, the array is the transpose of the reference's feature stage (its buffer %86) of the same
  arguments, narrowed.
-/
import proofs.«128343_j90847148245060_2_alg».proof.Proof.Gen.KernelIdeal.Frame
import proofs.«128343_j90847148245060_2_alg».proof.Proof.RefReadP
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 53200000 in
/-- The second window's array is the transpose of the reference's node features of the arguments, narrowed to bf16. -/
theorem V_featT (c : Dev nD) :
    @Eq (S256x8192.Idx → Ideal .bf16) (V m c main_v88)
      (transpose S256x8192 [1, 0] (truncf (F := Ideal) (s := S8192x256) (φ := .f32) .bf16 (Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32)
          transposes_S8192x256_S256x8192_1_0) := by
  dsimp only [V]
  simp only [hostOps0, hostOps0_1, hostOps0_2, hostOps0_3, hostOps0_4, List.flatten_cons, List.flatten_nil, List.append_nil,
    List.cons_append, List.nil_append]
  after_results_simp
  simp only [TRef.toBuf, TRef.ofBuf, cast_eq]
  rfl

end Cert.KernelIdeal.Host

end
-- ==== Proof.HostWts.lean ====
/-
  The node weights the region finds (the array of its third window).

  The weights are the logistic function of the third graph-convolution layer, computed on the host by the same operations
  as the reference's.  Reading the program's operations back from the launch contents, the array is the reference's weight
  stage (its buffer %69) of the same arguments.
-/
import proofs.«128343_j90847148245060_2_alg».proof.Proof.Gen.KernelIdeal.Frame
import proofs.«128343_j90847148245060_2_alg».proof.Proof.RefReadP
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 53200000 in
/-- The third window's array is the reference's node weights of the arguments. -/
theorem V_wts (c : Dev nD) :
    @Eq (S8192x1.Idx → Ideal .f32) (V m c main_v69)
      (Cert.ReferenceIdeal.ReadP.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) := by
  dsimp only [V]
  simp only [hostOps0, hostOps0_1, hostOps0_2, hostOps0_3, hostOps0_4, List.flatten_cons, List.flatten_nil, List.append_nil,
    List.cons_append, List.nil_append]
  after_results_simp
  simp only [TRef.toBuf, TRef.ofBuf, cast_eq]
  rfl

end Cert.KernelIdeal.Host

end
-- ==== Proof.lean ====
/-
  The kernel's program and its reference compute the same 8192 × 8192 array on the extended reals.

  Both programs first run three graph-convolution layers on the host — the same operations in the same order — to get
  the node features x (8192 × 256) and the node weights p (8192 × 1, a logistic function of the third layer).  The
  reference then forms x·xᵀ, shifts each row by its maximum, exponentiates, scales row r by p r, divides by the row's
  sum, and applies the logistic function spelt 1 / (1 + exp (−·)).  The kernel's program narrows x to bf16 (the identity
  on the extended reals), transposes it once on the host, and hands 256 rows at a time to a kernel that does the same
  arithmetic on two 128-row chunks with one matrix product, a lane maximum, a lane sum and the logistic operation.

  The proof names the common function once (`SimSoftmax.result`), shows that the reference's last eighteen operations are
  that function of its features, their transpose and its weights (RefTail), that the kernel's 32 written blocks tile the
  result array with that function of the three arrays the region finds (KernelChunk, KernelBlocks), and that those three
  arrays are the reference's features narrowed, their transpose, and the reference's weights, of the same arguments
  (HostFeat, HostFeatT, HostWts).  No entry needs to be finite: the two sides apply the same operations entry by entry,
  and only the layout of the sums and the spelling of the product and of the logistic function differ.
-/
import proofs.«128343_j90847148245060_2_alg».proof.Defs
import proofs.«128343_j90847148245060_2_alg».proof.Proof.Gen.Kernel
import proofs.«128343_j90847148245060_2_alg».proof.Proof.Gen.Kernel.Skeleton
import proofs.«128343_j90847148245060_2_alg».proof.Proof.Gen.Kernel.Launch
import proofs.«128343_j90847148245060_2_alg».proof.Proof.Gen.Kernel.Points
import proofs.«128343_j90847148245060_2_alg».proof.Proof.Gen.Kernel.Frame
import proofs.«128343_j90847148245060_2_alg».proof.Proof.Gen.KernelIdeal
import proofs.«128343_j90847148245060_2_alg».proof.Proof.Gen.KernelIdeal.Skeleton
import proofs.«128343_j90847148245060_2_alg».proof.Proof.Gen.KernelIdeal.Launch
import proofs.«128343_j90847148245060_2_alg».proof.Proof.Gen.KernelIdeal.Points
import proofs.«128343_j90847148245060_2_alg».proof.Proof.Gen.KernelIdeal.Frame
import proofs.«128343_j90847148245060_2_alg».proof.Proof.Gen.ReferenceIdeal
import proofs.«128343_j90847148245060_2_alg».proof.Proof.Gen.Pre_finite_inputs
import proofs.«128343_j90847148245060_2_alg».proof.Proof.Gen.KernelIdeal.Value
import proofs.«128343_j90847148245060_2_alg».proof.Proof.RefRunP
import proofs.«128343_j90847148245060_2_alg».proof.Proof.RefReadP
import proofs.«128343_j90847148245060_2_alg».proof.Proof.RefTail
import proofs.«128343_j90847148245060_2_alg».proof.Proof.KernelBlocks
import proofs.«128343_j90847148245060_2_alg».proof.Proof.HostFeat
import proofs.«128343_j90847148245060_2_alg».proof.Proof.HostFeatT
import proofs.«128343_j90847148245060_2_alg».proof.Proof.HostWts
import Idealize.ShloMosaic.Adequacy
import Idealize.ShloMosaic.Init

noncomputable section

namespace Cert.Proof

open Idealize.ShloMosaic Idealize.ShloMosaic.TcCoe Idealize.SL.Sem Cert.SimSoftmax

/-! ## The two result terms are one function -/

/-- `SimSoftmax.result` of a matrix and its transpose does not see whether the matrix was narrowed to bf16 first: on
    the extended reals narrowing is the identity, so both spellings read the same entries. -/
theorem result_narrowed (X : FVec Ideal Cert.KernelIdeal.S8192x256 .f32) (P : FVec Ideal Cert.KernelIdeal.S8192x1 .f32) :
    result X (transpose Cert.ReferenceIdeal.S256x8192 [1, 0] X Cert.ReferenceIdeal.Facts₀.transposes_S8192x256_S256x8192_1_0) P
      = result (truncf (F := Ideal) .bf16 X Cert.KernelIdeal.Facts₀.bitsLt_bf16_f32)
          (transpose Cert.KernelIdeal.S256x8192 [1, 0] (truncf (F := Ideal) .bf16 X Cert.KernelIdeal.Facts₀.bitsLt_bf16_f32)
            Cert.KernelIdeal.Facts₀.transposes_S8192x256_S256x8192_1_0) P := rfl

/-- From memories that agree on the eight arguments, the reference's result term is the kernel's result array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v105 (F := Ideal) m' c = Cert.KernelIdeal.Blocks.kernelResult m c := by
  rw [Cert.ReferenceIdeal.ReadP.val_main_v105_eq, Cert.ReferenceIdeal.Tail.result_eq, h0, h1, h2, h3, h4, h5, h6, h7]
  exact (result_narrowed _ _).trans
    (congr (congr (congrArg result (Cert.KernelIdeal.Host.V_feat m c)) (Cert.KernelIdeal.Host.V_featT m c))
      (Cert.KernelIdeal.Host.V_wts m c)).symm

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- Both runs end with the result array at `SimSoftmax.result` of the same three arrays. -/
theorem algebraic : Cert.algebraic_KernelIdeal_ReferenceIdeal := by
  intro m ρ m' ρ' _ hagree
  refine ⟨fun c => Cert.KernelIdeal.Blocks.kernelResult m c, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  exact results_agree m m' c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
